-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x32x128x32x32 : Shape := ⟨5, ![16, 32, 128, 32, 32]⟩
abbrev S_ : Shape := ⟨0, ![]⟩

class Facts : Prop where
  bcast_S_S16x32x128x32x32 : S_.BroadcastsInDim S16x32x128x32x32 (![] : Fin 0 → Fin S16x32x128x32x32.rank)
  reducesTo_S16x32x128x32x32_S_d0_1_2_3_4 : S16x32x128x32x32.ReducesTo [0, 1, 2, 3, 4] S_
  h_S_ : 0 < S_.numel

variable [Facts]

def fn {F : FTy → Type} [FloatOps F] (main_arg0 : FVec F S16x32x128x32x32 .f32) : IVec S_ 1 :=
  let main_v0 : FVec F S16x32x128x32x32 .f32 := Host.absf main_arg0
  let main_cst : FVec F S_ .f32 := constant S_ .f32 0x7F800000#32
  let main_v1 : FVec F S16x32x128x32x32 .f32 := broadcastInDim S16x32x128x32x32 ![] bcast_S_S16x32x128x32x32 main_cst
  let main_v2 : IVec S16x32x128x32x32 1 := cmpf .olt main_v0 main_v1
  let main_c : IVec S_ 1 := constantI S_ 1 1#1
  let main_v3 : IVec S_ 1 := (fun x v => Host.reduce IntOp.andi x v reducesTo_S16x32x128x32x32_S_d0_1_2_3_4 h_S_) main_v2 main_c
  main_v3
-- ==== Kernel.lean ====
abbrev S16x32x128x32x32 : Shape := ⟨5, ![16, 32, 128, 32, 32]⟩
abbrev S65536x1024 : Shape := ⟨2, ![65536, 1024]⟩
abbrev S2048x1024 : Shape := ⟨2, ![2048, 1024]⟩

abbrev nBuf : Space → Nat
  | .hbm => 4
  | .vmem => 4
  | .smem => 0
  | _ => 0

abbrev bufTy : (tb : Table) → Fin (tcTables nBuf tb) → BufTy
  | .hbm, ⟨0, _⟩ => ⟨S16x32x128x32x32, .f32⟩
  | .hbm, ⟨1, _⟩ => ⟨S65536x1024, .f32⟩
  | .hbm, ⟨2, _⟩ => ⟨S65536x1024, .f32⟩
  | .hbm, ⟨3, _⟩ => ⟨S16x32x128x32x32, .f32⟩
  | .local _ .vmem, ⟨0, _⟩ => ⟨S2048x1024, .f32⟩
  | .local _ .vmem, ⟨1, _⟩ => ⟨S2048x1024, .f32⟩
  | .local _ .vmem, ⟨2, _⟩ => ⟨S2048x1024, .f32⟩
  | .local _ .vmem, ⟨3, _⟩ => ⟨S2048x1024, .f32⟩
  | _, _ => ⟨S16x32x128x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S16x32x128x32x32_S65536x1024 : S16x32x128x32x32.ShapeCasts S65536x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  natLt_1_32 : 1 < 32
  shapeCasts_S65536x1024_S16x32x128x32x32 : S65536x1024.ShapeCasts S16x32x128x32x32
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S65536x1024.size a
  hwx0_0 : ∀ i : grid0.Coords, EltTy.bits .f32 = 32 ∨ (Rect.block (s := S65536x1024) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S65536x1024.size a
  hwx0_1 : ∀ i : grid0.Coords, EltTy.bits .f32 = 32 ∨ (Rect.block (s := S65536x1024) S2048x1024.size (cc0_transform_1 i) (hinb0_1 i)).WholeWords (EltTy.packing .f32)

variable [Facts₀]

abbrev win0_0 : Pipeline.Window sig grid0 :=
  Pipeline.Window.ofSpec (Memref.whole main_v0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x32x128x32x32 : Shape := ⟨5, ![16, 32, 128, 32, 32]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S16x32x128x32x32, .f32⟩
  | .hbm, ⟨1, _⟩ => ⟨S_, .f32⟩
  | .hbm, ⟨2, _⟩ => ⟨S16x32x128x32x32, .f32⟩
  | .hbm, ⟨3, _⟩ => ⟨S16x32x128x32x32, .f32⟩
  | .hbm, ⟨4, _⟩ => ⟨S_, .f32⟩
  | .hbm, ⟨5, _⟩ => ⟨S16x32x128x32x32, .f32⟩
  | .hbm, ⟨6, _⟩ => ⟨S16x32x128x32x32, .i1⟩
  | .hbm, ⟨7, _⟩ => ⟨S16x32x128x32x32, .f32⟩
  | _, _ => ⟨S16x32x128x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  bcast_S_S16x32x128x32x32 : S_.BroadcastsInDim S16x32x128x32x32 (![] : Fin 0 → Fin S16x32x128x32x32.rank)

variable [Facts₀]

class Facts : Prop extends Facts₀ where

variable [Facts]
-- ==== Proof.Spike.lean ====
/-
  One neuron of the layer at one time step, on the extended reals.

  The membrane potential is re-set to its resting value 0 at every step, so a step sees only its own input
  current `z`: the potential is `0 + z`, and the neuron fires — output 1 — exactly when the potential has
  reached the threshold 1/2, and is silent — output 0 — otherwise.  The two programs spell this one function
  differently: one adds the resting value on the right (`z + 0`), widens the comparison's bit with zeros to a
  32-bit word and converts that word as a SIGNED integer; the other adds it on the left (`0 + z`) and converts the
  bit itself as an UNSIGNED integer.  Addition of extended reals is commutative whatever `z` is (infinite values
  included), and a bit padded with zeros is non-negative, so its signed and unsigned readings agree.
-/
import Idealize.ShloMosaic.PureOps.Ideal

noncomputable section

namespace Cert.Lif

open Idealize.ShloMosaic

/-- The neuron's output for the input current `z`: the bit of `0 + z ≥ 1/2` (the words `0x00000000` and
    `0x3F000000` are the f32 patterns of 0 and 1/2; they are never evaluated), read as the number 0 or 1. -/
def spike (z : Ideal .f32) : Ideal .f32 :=
  FloatOps.uitofp .f32
    (FloatOps.cmpf .oge (FloatOps.addf (FloatOps.ofBits .f32 0x00000000#32) z) (FloatOps.ofBits .f32 0x3F000000#32))

/-- A bit padded with zeros to 32 bits and read as a signed integer is the bit read as a natural number. -/
theorem toInt_setWidth_bit : ∀ b : BitVec 1, (b.setWidth 32).toInt = (b.toNat : ℤ) := by decide

/-- The other spelling — `z + 0`, the bit widened and converted signed — is the same function of `z`. -/
theorem spike_widened (z : Ideal .f32) :
    FloatOps.sitofp .f32
      ((FloatOps.cmpf .oge (FloatOps.addf z (Scalar.ofBits .f32 0x00000000#32)) (Scalar.ofBits .f32 0x3F000000#32)).setWidth 32)
      = spike z := by
  unfold spike
  show (((BitVec.setWidth 32 _).toInt : ℝ) : EReal) = (((_ : BitVec 1).toNat : ℝ) : EReal)
  rw [toInt_setWidth_bit, Int.cast_natCast, Ideal.addf_def, Ideal.addf_def, add_comm]

end Cert.Lif

end
-- ==== Proof.Reference.lean ====
/-
  The reference program: every neuron of the [16, 32, 128, 32, 32] array of input currents gets the layer's
  one-step rule (`Cert.Lif.spike`) — the resting value 0 repeated over the array and added to the currents on
  the left, the threshold 1/2 repeated over the array, the comparison's bit converted to 0 or 1.  Every
  operation acts entry by entry, so the result at an index depends on the current at that index only.
-/
import proofs.«159405_j25941602467942_1_alg».proof.Proof.Gen.ReferenceIdeal.Run
import proofs.«159405_j25941602467942_1_alg».proof.Proof.Gen.ReferenceIdeal.Read
import proofs.«159405_j25941602467942_1_alg».proof.Proof.Spike

noncomputable section

namespace Cert.Lif

open Idealize.ShloMosaic Cert.ReferenceIdeal Cert.ReferenceIdeal.Read

/-- The reference's result as a function of the array of input currents: the one-step rule at every entry. -/
theorem reference_eq (x : S16x32x128x32x32.Idx → Ideal .f32) :
    val_main_v4 (F := Ideal) x = fun i => spike (x i) := by
  funext i
  rw [val_main_v4_apply, val_main_v3_apply, val_main_v1_apply, val_main_v0_apply, val_main_v2_apply,
    val_main_cst_apply, val_main_cst_0_apply]
  rfl

end Cert.Lif

end
-- ==== Proof.Block.lean ====
/-
  What the kernel's body computes from one block.  The body loads a [2048, 1024] block of input currents, adds
  the resting value 0 to every entry (on the right), compares with the threshold 1/2, widens the comparison's
  bits to 32-bit words and converts them to numbers: the layer's one-step rule (`Cert.Lif.spike`, in its other
  spelling) at every entry of the block.  The body's shape cast is from the block's shape to itself, so it
  moves nothing.
-/
import proofs.«159405_j25941602467942_1_alg».proof.Proof.Gen.KernelIdeal.Skeleton
import proofs.«159405_j25941602467942_1_alg».proof.Proof.Spike
import Idealize.ShloMosaic.Lib.Pipeline.Value

noncomputable section

namespace Cert.Lif

open Idealize.ShloMosaic Cert.KernelIdeal Cert.KernelIdeal.Gen

/-- The value the body stores, from the block it loaded: the one-step rule at every entry. -/
theorem block_eq (x0 : Vec Ideal S2048x1024 .f32) : k0_pay1 (F := Ideal) x0 = fun j => spike (x0 j) := by
  funext j
  show FloatOps.sitofp .f32
      ((FloatOps.cmpf .oge (FloatOps.addf (F := Ideal) (φ := .f32) (shapeCast S2048x1024 x0 _ j) (Scalar.ofBits .f32 0x00000000#32))
        (Scalar.ofBits .f32 0x3F000000#32)).setWidth 32) = _
  rw [shapeCast_self]
  exact spike_widened (x0 j)

end Cert.Lif

end
-- ==== Proof.Region.lean ====
/-
  The kernel's region: a [65536, 1024] matrix of input currents is cut into 32 stretches of 2048 whole rows;
  grid point `t` loads stretch `t`, applies the layer's one-step rule to every entry (`Cert.Lif.block_eq`) and
  writes the result back as stretch `t` of the output matrix.  Input and output blocks of a point are the same
  rows and all columns, and row `r` belongs to the stretch `r / 2048`, so the 32 stretches tile the output: after
  the region the output matrix holds the rule applied to the input matrix, entry by entry.
-/
import proofs.«159405_j25941602467942_1_alg».proof.Proof.Gen.KernelIdeal.Frame
import proofs.«159405_j25941602467942_1_alg».proof.Proof.Block
import Idealize.ShloMosaic.Lib.Pipeline.Value

set_option maxRecDepth 16384

noncomputable section

namespace Cert.Lif

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The rule at every entry of a [65536, 1024] matrix of input currents. -/
abbrev rows (a : S65536x1024.Idx → Elt Ideal .f32) : S65536x1024.Idx → Elt Ideal .f32 := fun i => spike (a i)

theorem zero_offsets : (![0, 0] : Fin 2 → Nat) = fun _ => 0 := funext fun a => by fin_cases a <;> rfl

/-- Grid point `t`'s input block and output block are both block `(t, 0)`: stretch `t` of the rows, all columns. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What point `t` writes back is stretch `t` of the rule applied to the input matrix as the region finds it. -/
theorem flushed_eq (c : Dev nD) (t : Fin cfg0.N) :
    (dats m 0 c).flushed 1 t = ((cfg0.win 1).blk t).view.read (Elt Ideal) (rows (V m c main_v0)) := by
  show (cfg0.win 1).cut (grid0.coords t) ((dats m 0 c).after 1 t) = _
  rw [after0_1]
  unfold out0_1
  rw [View.canon_unit_zero zero_offsets]
  simp only [View.ld_unit_zero (S := S2048x1024) zero_offsets]
  rw [block_eq]
  obtain ⟨e0, e1, e2, e3⟩ := block_index t
  funext j
  show spike (V m c main_v0 (((cfg0.win 0).blk t).view.emb j)) = spike (V m c main_v0 (((cfg0.win 1).blk t).view.emb j))
  have h0 : ((cfg0.win 0).blk t).view.emb j = ((cfg0.win 1).blk t).view.emb j := by
    funext a; apply Fin.ext
    match a with
    | ⟨0, _⟩ => show win0_0.index t (0 : Fin 2) * 2048 + 1 * (j 0).val = win0_1.index t (0 : Fin 2) * 2048 + 1 * (j 0).val; omega
    | ⟨1, _⟩ => show win0_0.index t (1 : Fin 2) * 1024 + 1 * (j 1).val = win0_1.index t (1 : Fin 2) * 1024 + 1 * (j 1).val; omega
  rw [h0]

/-- An entry of the output matrix is in point `t`'s block iff each of its coordinates is in the block's range. -/
theorem mem_block (t : Fin cfg0.N) (i : S65536x1024.Idx) :
    i ∈ ((cfg0.win 1).blk t).view.set ↔ ∀ a : Fin 2, win0_1.index t a * S2048x1024.size a ≤ (i a).val ∧ (i a).val < win0_1.index t a * S2048x1024.size a + S2048x1024.size a := by
  show i ∈ ((View.whole main_v1).slice (win0_1.rect t)).set ↔ _
  rw [View.set_slice_whole, Rect.mem_set_unit]
  exact Iff.rfl

/-- Every entry of the output matrix is written back by some point: row `r` by point `r / 2048`. -/
theorem covered (i : S65536x1024.Idx) :
    ∃ t : Fin cfg0.N, (cfg0.win 1).flush t = true ∧ i ∈ ((cfg0.win 1).blk t).view.set := by
  have hi0 : (i 0).val < 65536 := (i 0).isLt
  have hi1 : (i 1).val < 1024 := (i 1).isLt
  have hN : (i 0).val / 2048 < cfg0.N := by
    show (i 0).val / 2048 < grid0.N
    rw [N_0]; omega
  obtain ⟨-, -, e2, e3⟩ := block_index ⟨(i 0).val / 2048, hN⟩
  have e2' : win0_1.index ⟨(i 0).val / 2048, hN⟩ (0 : Fin 2) = (i 0).val / 2048 := e2
  refine ⟨⟨(i 0).val / 2048, hN⟩, flush0_1 _, ?_⟩
  rw [mem_block]
  intro a
  match a with
  | ⟨0, _⟩ => show win0_1.index ⟨(i 0).val / 2048, hN⟩ (0 : Fin 2) * 2048 ≤ (i 0).val ∧ (i 0).val < win0_1.index ⟨(i 0).val / 2048, hN⟩ (0 : Fin 2) * 2048 + 2048; omega
  | ⟨1, _⟩ => show win0_1.index ⟨(i 0).val / 2048, hN⟩ (1 : Fin 2) * 1024 ≤ (i 1).val ∧ (i 1).val < win0_1.index ⟨(i 0).val / 2048, hN⟩ (1 : Fin 2) * 1024 + 1024; omega

/-- The output matrix after the region: the rule applied to the input matrix, entry by entry. -/
theorem region_result (c : Dev nD) : (dats m 0 c).arrAt 1 cfg0.N = rows (V m c main_v0) :=
  (dats m 0 c).arrAt_eq_of_cover 1 _ (fun t _ => flushed_eq m c t) covered

end Cert.Lif

end
-- ==== Proof.Whole.lean ====
/-
  The whole kernel program.  The [16, 32, 128, 32, 32] array of input currents is laid out row-major as a
  [65536, 1024] matrix (one row per (time step, batch entry, channel), one column per pixel), the region applies
  the layer's one-step rule to every entry of the matrix (`Cert.Lif.region_result`), and the output matrix is
  laid out row-major in the argument's shape again.  The rule acts entry by entry and the second re-layout undoes
  the first, so the result array holds the rule applied to the argument array, index by index.
-/
import proofs.«159405_j25941602467942_1_alg».proof.Proof.Gen.KernelIdeal.Frame
import proofs.«159405_j25941602467942_1_alg».proof.Proof.Region
import Idealize.ShloMosaic.Lib.StableHlo.Run
import Idealize.ShloMosaic.Lib.Pipeline.Value

set_option maxRecDepth 16384

noncomputable section

namespace Cert.Lif

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- The matrix the region finds: the argument array's entries, row-major, as 65536 rows of 1024. -/
theorem entry_eq (c : Dev nD) :
    (V m c main_v0 : S65536x1024.Idx → Elt Ideal .f32)
      = shapeCast S65536x1024 (m ((c.tc : Thread nD τ).loc main_arg0)) shapeCasts_S16x32x128x32x32_S65536x1024 := by
  show StableHlo.after hostOps0 (fun b => m (c, b)) (Proc.devRef .tc main_v0) = _
  after_results
  rfl

/-- The result array: the output matrix's entries, row-major, in the argument's shape. -/
theorem tail_eq (c : Dev nD) :
    Pipeline.afterTail₀ cfgs (dats m) 0 (V0 m) [hostOps1] c main_v2
      = shapeCast S16x32x128x32x32 ((dats m 0 c).arrAt 1 cfg0.N) shapeCasts_S65536x1024_S16x32x128x32x32 := by
  unfold Pipeline.afterTail₀
  show StableHlo.after hostOps1 _ (Proc.devRef .tc main_v2) = _
  after_results
  exact congrArg (fun z => shapeCast S16x32x128x32x32 z shapeCasts_S65536x1024_S16x32x128x32x32)
    (Pipeline.withArrays_arr spec0 launch0.win.arr_inj c (V0 m c) (fun w => (dats m 0 c).arrAt w cfg0.N) 1)

/-- Laying an array out as a matrix, applying the rule to every entry of the matrix and laying the matrix out in
    the array's shape again is applying the rule to every entry of the array: the rule does not look at the index,
    and the second re-layout is the inverse of the first. -/
theorem relayout (x : S16x32x128x32x32.Idx → Elt Ideal .f32)
    (h : S16x32x128x32x32.ShapeCasts S65536x1024) (h' : S65536x1024.ShapeCasts S16x32x128x32x32) :
    shapeCast S16x32x128x32x32 (rows (shapeCast S65536x1024 x h)) h' = fun i => spike (x i) :=
  shapeCast_shapeCast (fun i => spike (x i)) h h'

/-- The kernel program's result array as a function of its argument array: the rule at every index. -/
theorem result_eq (c : Dev nD) :
    Pipeline.afterTail₀ cfgs (dats m) 0 (V0 m) [hostOps1] c main_v2
      = fun i => spike (m ((c.tc : Thread nD τ).loc main_arg0) i) := by
  rw [tail_eq, region_result, entry_eq]
  exact relayout _ _ _

/-- Every weakly fair execution of the kernel program terminates with the result array at the rule applied to the
    argument array, index by index, and the argument array unchanged. -/
theorem kernel_run : θ_run defs (onTc (τ := τ) (main (F := Ideal))) ⟨m, fun _ => 0, ρ⟩ fun r => ∀ c : Dev nD,
      r.2.mem ((c.tc : Thread nD τ).loc main_v2) = (fun i => spike (m ((c.tc : Thread nD τ).loc main_arg0) i))
      ∧ r.2.mem ((c.tc : Thread nD τ).loc main_arg0) = m ((c.tc : Thread nD τ).loc main_arg0) :=
  (θ_run defs _ _).mono (fun r h c =>
      ⟨((h c).2 main_v2 (Pipeline.mem_restRefs_of main_v2 (by decide) (by decide))).trans (result_eq m c),
       ((h c).2 main_arg0 (Pipeline.mem_restRefs_of main_arg0 (by decide) (by decide))).trans (W_main_arg0 m (dats m) c)⟩)
    (run_main m ρ)

end Cert.Lif

end
-- ==== Proof.lean ====
/-
  A layer of leaky integrate-and-fire neurons whose membrane potential is re-set to its resting value 0 before
  every time step: a step sees only its own input current, so the layer is the pointwise rule
  "output 1 where 0 + current ≥ 1/2, output 0 elsewhere" over the [16, 32, 128, 32, 32] array of input currents
  (`Cert.Lif.spike`, Proof/Spike.lean).

  The reference applies the rule to the array as it stands (Proof/Reference.lean).  The kernel lays the array out
  row-major as a [65536, 1024] matrix, applies the rule to 32 stretches of 2048 rows, one per grid point
  (Proof/Block.lean: what the body computes from one block; Proof/Region.lean: the stretches tile the matrix), and
  lays the output matrix out in the array's shape again (Proof/Whole.lean: the second re-layout undoes the first).
  The two programs differ only in how they spell the rule at one entry — on which side the resting value is added,
  and whether the comparison's bit is widened and converted signed or converted unsigned as it is — and the two
  spellings are one function of the current on the extended reals, with no assumption on the current: finiteness
  of the inputs is not used.  The kernel's idealization rewrote no operation, so there is nothing to preserve.
-/
import proofs.«159405_j25941602467942_1_alg».proof.Defs
import proofs.«159405_j25941602467942_1_alg».proof.Proof.Gen.Kernel
import proofs.«159405_j25941602467942_1_alg».proof.Proof.Gen.Kernel.Skeleton
import proofs.«159405_j25941602467942_1_alg».proof.Proof.Gen.Kernel.Launch
import proofs.«159405_j25941602467942_1_alg».proof.Proof.Gen.Kernel.Points
import proofs.«159405_j25941602467942_1_alg».proof.Proof.Gen.Kernel.Frame
import proofs.«159405_j25941602467942_1_alg».proof.Proof.Gen.KernelIdeal
import proofs.«159405_j25941602467942_1_alg».proof.Proof.Gen.KernelIdeal.Skeleton
import proofs.«159405_j25941602467942_1_alg».proof.Proof.Gen.KernelIdeal.Launch
import proofs.«159405_j25941602467942_1_alg».proof.Proof.Gen.KernelIdeal.Points
import proofs.«159405_j25941602467942_1_alg».proof.Proof.Gen.KernelIdeal.Frame
import proofs.«159405_j25941602467942_1_alg».proof.Proof.Gen.ReferenceIdeal
import proofs.«159405_j25941602467942_1_alg».proof.Proof.Gen.ReferenceIdeal.Run
import proofs.«159405_j25941602467942_1_alg».proof.Proof.Gen.ReferenceIdeal.Read
import proofs.«159405_j25941602467942_1_alg».proof.Proof.Gen.Pre_finite_inputs
import proofs.«159405_j25941602467942_1_alg».proof.Proof.Reference
import proofs.«159405_j25941602467942_1_alg».proof.Proof.Whole
import Idealize.ShloMosaic.Adequacy
import Idealize.ShloMosaic.Init

noncomputable section

namespace Cert.Proof

open Idealize.ShloMosaic Idealize.SL.Sem

/-- The kernel as printed runs to its end and leaves its argument array as it was. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From argument arrays that agree, both programs end with the rule applied to the argument array, index by
    index: the kernel by `Cert.Lif.kernel_run`, the reference by its run read one operation at a time. -/
theorem equal_results : Cert.algebraic_KernelIdeal_ReferenceIdeal := by
  intro m ρ m' ρ' _ hagree
  refine ⟨fun c => fun i => Cert.Lif.spike (m ((c.tc : Thread Cert.KernelIdeal.nD Cert.KernelIdeal.τ).loc Cert.KernelIdeal.main_arg0) i),
    Cert.Lif.kernel_run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v4_eq, Cert.Lif.reference_eq, hagree c]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, equal_results⟩

end Cert.Proof

end
